-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x512 : Shape := ⟨3, ![8, 2048, 512]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel

variable [Facts]

def fn {F : FTy → Type} [FloatOps F] (main_arg0 : FVec F S8x2048x512 .f32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  main_v3
-- ==== Kernel.lean ====
abbrev S8x2048x512 : Shape := ⟨3, ![8, 2048, 512]⟩
abbrev S1x512x512 : Shape := ⟨3, ![1, 512, 512]⟩
abbrev S1x2048x512 : Shape := ⟨3, ![1, 2048, 512]⟩
abbrev S512x512 : Shape := ⟨2, ![512, 512]⟩
abbrev S2048x512 : Shape := ⟨2, ![2048, 512]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 8
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .bf16⟩
  | .hbm, ⟨2, _⟩ => ⟨S8x2048x512, .f32⟩
  | .local _ .vmem, ⟨0, _⟩ => ⟨S1x512x512, .f32⟩
  | .local _ .vmem, ⟨1, _⟩ => ⟨S1x512x512, .f32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .bf16⟩
  | .local _ .vmem, ⟨5, _⟩ => ⟨S1x2048x512, .bf16⟩
  | .local _ .vmem, ⟨6, _⟩ => ⟨S1x512x512, .f32⟩
  | .local _ .vmem, ⟨7, _⟩ => ⟨S1x512x512, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bitsLt_bf16_f32 : FTy.bits .bf16 < FTy.bits .f32
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  reduces_S512x2048_S512 : S512x2048.Reduces [1] S512
  shapeCasts_S512_S512x1 : S512.ShapeCasts S512x1
  broadcasts_S512x1_S512x2048 : S512x1.Broadcasts S512x2048
  broadcasts_S512x1_S512x512 : S512x1.Broadcasts S512x512
  shapeCasts_S512x512_S1x512x512 : S512x512.ShapeCasts S1x512x512
  dot_S512x512_S2048x512_S512x2048_1_1_0_0_n_n_wf : DotDims.WF S512x512 S2048x512 S512x2048 [1] [1] [0] [0] [] []
  dot_S512x2048_S2048x512_S512x512_1_0_0_1_n_n_wf : DotDims.WF S512x2048 S2048x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S8x2048x512.size a
  hwx0_0 : ∀ i : grid0.Coords, EltTy.bits .f32 = 32 ∨ (Rect.block (s := S8x2048x512) S1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x512.size a ≤ S8x2048x512.size a
  hwx0_1 : ∀ i : grid0.Coords, EltTy.bits .f32 = 32 ∨ (Rect.block (s := S8x2048x512) S1x2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x512.size a ≤ S8x2048x512.size a
  hwx0_2 : ∀ i : grid0.Coords, EltTy.bits .bf16 = 32 ∨ (Rect.block (s := S8x2048x512) S1x2048x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x512.size a ≤ S8x2048x512.size a
  hwx0_3 : ∀ i : grid0.Coords, EltTy.bits .f32 = 32 ∨ (Rect.block (s := S8x2048x512) S1x512x512.size (cc0_transform_3 i) (hinb0_3 i)).WholeWords (EltTy.packing .f32)

variable [Facts₀]

def dot_S512x512_S2048x512_S512x2048_1_1_0_0_n_n : DotDims S512x512 S2048x512 S512x2048 where
  lhsContracting := [1]
  rhsContracting := [1]
  lhsNonContracting := [0]
  rhsNonContracting := [0]
  lhsBatch := []
  rhsBatch := []
  wf := dot_S512x512_S2048x512_S512x2048_1_1_0_0_n_n_wf
def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf

abbrev win0_0 : Pipeline.Window sig grid0 :=
  Pipeline.Window.ofSpec (Memref.whole main_arg0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x512 : Shape := ⟨3, ![8, 2048, 512]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 17
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S8x2048x2048, .f32⟩
  | .hbm, ⟨2, _⟩ => ⟨S_, .f32⟩
  | .hbm, ⟨3, _⟩ => ⟨S8x2048, .f32⟩
  | .hbm, ⟨4, _⟩ => ⟨S_, .f32⟩
  | .hbm, ⟨5, _⟩ => ⟨S8x2048, .f32⟩
  | .hbm, ⟨6, _⟩ => ⟨S8x2048, .f32⟩
  | .hbm, ⟨7, _⟩ => ⟨S8x2048x1, .f32⟩
  | .hbm, ⟨8, _⟩ => ⟨S8x2048x2048, .f32⟩
  | .hbm, ⟨9, _⟩ => ⟨S8x2048x2048, .f32⟩
  | .hbm, ⟨10, _⟩ => ⟨S8x2048x2048, .f32⟩
  | .hbm, ⟨11, _⟩ => ⟨S_, .f32⟩
  | .hbm, ⟨12, _⟩ => ⟨S8x2048, .f32⟩
  | .hbm, ⟨13, _⟩ => ⟨S8x2048x1, .f32⟩
  | .hbm, ⟨14, _⟩ => ⟨S8x2048x2048, .f32⟩
  | .hbm, ⟨15, _⟩ => ⟨S8x2048x2048, .f32⟩
  | .hbm, ⟨16, _⟩ => ⟨S8x2048x512, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]

class Facts₀ : Prop where
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x512_S8x2048x512_S8x2048x2048_2_2_1_1_0_0_wf : DotDims.WF S8x2048x512 S8x2048x512 S8x2048x2048 [2] [2] [1] [1] [0] [0]
  dot_S8x2048x2048_S8x2048x512_S8x2048x512_2_1_1_2_0_0_wf : DotDims.WF S8x2048x2048 S8x2048x512 S8x2048x512 [2] [1] [1] [2] [0] [0]

variable [Facts₀]

def dot_S8x2048x512_S8x2048x512_S8x2048x2048_2_2_1_1_0_0 : DotDims S8x2048x512 S8x2048x512 S8x2048x2048 where
  lhsContracting := [2]
  rhsContracting := [2]
  lhsNonContracting := [1]
  rhsNonContracting := [1]
  lhsBatch := [0]
  rhsBatch := [0]
  wf := dot_S8x2048x512_S8x2048x512_S8x2048x2048_2_2_1_1_0_0_wf
def dot_S8x2048x2048_S8x2048x512_S8x2048x512_2_1_1_2_0_0 : DotDims S8x2048x2048 S8x2048x512 S8x2048x512 where
  lhsContracting := [2]
  rhsContracting := [1]
  lhsNonContracting := [1]
  rhsNonContracting := [2]
  lhsBatch := [0]
  rhsBatch := [0]
  wf := dot_S8x2048x2048_S8x2048x512_S8x2048x512_2_1_1_2_0_0_wf

class Facts : Prop extends Facts₀ where

variable [Facts]
-- ==== Proof.RunBits.lean ====
/-
  The run of the attention kernel's program, read off the pipeline rules by hand.

  The program converts the argument array to bf16 on the host and then launches one pipelined region over a
  grid of 8 × 4 points.  The region has four windows: the query tile (block (b, qi) of the argument, [1,512,512]),
  the keys (block b of the SAME argument array, [1,2048,512]), the values (block b of the converted copy) and the
  output tile (block (b, qi) of the result).  Two input windows read one array, so that array's ownership is dealt
  between them in halves when the region is entered, and each window ends holding its half of the unchanged array.

  At every point the body loads the three input blocks whole, loads the output block (a value it never uses), and
  stores ONE value covering the output block: the payload `k0_pay1` of the three loaded blocks.  So after the
  body the output window's buffer holds `out3` of the input blocks, the input windows' buffers hold their blocks as
  before, and nothing else is touched.  The pipeline rules then give the final arrays: every input array as it
  was, and the result array overwritten block by block with what the body left at each point (`Dat.arrAt`).
-/
import proofs.«147755_j40243843563672_2_alg».proof.Proof.Gen.Kernel.Launch
import proofs.«147755_j40243843563672_2_alg».proof.Proof.Gen.Kernel.Skeleton
import proofs.«147755_j40243843563672_2_alg».proof.Proof.Gen.Kernel.Points
import Idealize.ShloMosaic.Lib.Pipeline.FrameBody
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- The buffers as the region finds them: the launch contents after the host's conversion. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is the host conversion followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The conversion writes the bf16 copy only: the argument array is found as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's buffer holds its block at every point, fetched there or not (where it is not fetched the block
    index has not moved), for any proof data on these arrays whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves -/

abbrev rq : Rect S1x512x512 := Rect.unit (s := S1x512x512) ![0, 0, 0] S1x512x512.size inb_S1x512x512_S1x512x512_0_0_0
abbrev rk : Rect S1x2048x512 := Rect.unit (s := S1x2048x512) ![0, 0, 0] S1x2048x512.size inb_S1x2048x512_S1x2048x512_0_0_0

/-- The output window's buffer after the body, from the input blocks: its one store, which covers the block. -/
def out3 (x0 : Vec F S1x512x512 .f32) (x1 : Vec F S1x2048x512 .f32) (x2 : Vec F S1x2048x512 .bf16) : Vec F S1x512x512 .f32 :=
  View.canon [⟨rq, k0_pay1 (View.ld x0 rq) (View.ld x1 rk) (View.ld x2 rk)⟩]

/-- The one store covers the block. -/
theorem cover3 (p0 : Vec F S1x512x512 .f32) (y : S1x512x512.Idx) :
    ∃ pc ∈ ([⟨rq, p0⟩] : List (View.Piece (Elt F) S1x512x512 .f32)), y ∈ pc.1.set :=
  View.cover_of_tiled [⟨rq, p0⟩] S1x512x512.size (by rfl) y

/-! ## The body's triple -/

set_option maxHeartbeats 1000000 in
/-- On whole staging memrefs, the inputs' at read contents `x0 x1 x2` and the output's at anything, the body runs to
    the continuation holding the inputs' as they were and the output's at `out3` of them. -/
theorem sound_kernel (c : Dev nD) (E : Set ℕ) (i : grid0.Coords)
    (arg2 : Memref sig .tc .vmem S1x512x512 .f32) (harg2 : arg2.IsWhole) (arg3 : Memref sig .tc .vmem S1x2048x512 .f32) (harg3 : arg3.IsWhole)
    (arg4 : Memref sig .tc .vmem S1x2048x512 .bf16) (harg4 : arg4.IsWhole) (arg5 : Memref sig .tc .vmem S1x512x512 .f32) (harg5 : arg5.IsWhole)
    (x0 : Vec F S1x512x512 .f32) (x1 : Vec F S1x2048x512 .f32) (x2 : Vec F S1x2048x512 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out3 x0 x1 x2)) -∗ K ⟨⟩))
      ⊢ wp frame (wpE (defs₀ (F := F)) Variants.none c none) E (cc0__attn_kernel i arg2 harg2 arg3 harg3 arg4 harg4 arg5 harg5) K := by
  simp only [cc0__attn_kernel_eq_skeleton]; unfold cc0__attn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

/-! ## The proof data -/

/-- The region's proof data on core `c`: the arrays as the region finds them; after the body each input window's
    buffer at its block and the output's at `out3` of the input blocks; nothing carried between points; nothing
    owed; the argument array's ownership dealt in halves to the two windows that read it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out3 (iblk m c 0 t) (iblk m c 1 t) (iblk m c 2 t)
  Φ _ := BI.emp
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = out3 (iblk m c 0 t) (iblk m c 1 t) (iblk m c 2 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

end Cert.Kernel.Run

end
-- ==== Proof.LaunchBits.lean ====
/-
  The launch of the attention kernel's region and the program's run.

  When the region is entered the three buffers behind the four windows' arrays are owned whole.  The query window
  and the key window read the same array, so its ownership is split into two halves, one per window; the converted
  copy goes to the value window and the result array to the output window, each whole.  Nothing else is handed to
  the body: the program has no other buffer, scoped or not.  The pipeline's launch rule for windows that share an
  array then gives the run: every weakly fair execution ends, nothing faulting, with each window's array at what
  the rule computes from the proof data.
-/
import proofs.«147755_j40243843563672_2_alg».proof.Proof.RunBits

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Entering the region: the arrays' ownership dealt to the windows -/

/-- The three buffers behind the windows' arrays, each owned whole, are the four windows' arrays at their shares: the
    argument array's ownership splits into the halves the query window and the key window hold. -/
theorem hsplit (c : Dev nD) :
    (Pipeline.arrBufs (Ix := Unit) (Name := ℕ) (U := UR sig nD τ) (Lvl := ℕ) (Val := Elt F) spec0 c (V m c) : sProp 𝕄)
      ⊢ (dats m 0 c).arrays ((dats m 0 c).arrAt · 0) := by
  unfold Pipeline.arrBufs Dat.arrays
  rw [bigSep_W0, bigSep_eq_bigSepL_of_eq [main_arg0, main_v0, main_v1] (by decide) (by decide)]
  simp only [bigSepL_cons_cons, bigSepL_singleton]
  rw [View.set_whole, View.set_whole, View.set_whole,
    show (dats m 0 c).share 0 = fullShare.left from rfl, show (dats m 0 c).share 1 = fullShare.right from rfl,
    show (dats m 0 c).share 2 = fullShare from rfl, show (dats m 0 c).share 3 = fullShare from rfl]
  show iprop(_ ∗ _ ∗ _) ⊢ _
  iintro ⟨Ha, Hv0, Hv1⟩
  ihave Ha' := (pointsTo_share (PosShare.mem_left_op_right fullShare)).1 $$ Ha
  icases Ha' with ⟨HaL, HaR⟩
  isplitl [HaL]; · iexact HaL
  isplitl [HaR]; · iexact HaR
  isplitl [Hv0]; · iexact Hv0
  iexact Hv1

/-! ## The run -/

set_option backward.isDefEq.respectTransparency.types false in
/-- Every weakly fair execution of the program ends, nothing faulting, with each window's array at what the pipeline
    rules compute from the proof data. -/
theorem run_main : θ_run defs (onTc (τ := τ) (main (F := F))) (s₀ m ρ)
    (fun r => ∀ c : Dev nD, ∀ w, r.2.mem (((cfgs 0).spec w).arr.view.loc (c.tc : Thread nD τ)) = (dats m 0 c).arrAt w (cfgs 0).N) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m Variants.none) (hsplit := hsplit m)
    (X := fun _ => BI.emp) (Y := fun _ => BI.emp) (Z := fun _ => BI.emp)
    (hX := fun c => by
      show (Pipeline.unscopedRest spec0 c (V m c) : sProp 𝕄) ⊢ iprop(BI.emp ∗ BI.emp)
      rw [unscopedRest0_eq]
      iintro H; isplitl [H]; · iexact H
      iempintro)
    (hin := fun c => by
      show iprop((BI.emp : sProp 𝕄) ∗ Pipeline.scopedRest spec0 c) ⊢ (BI.emp : sProp 𝕄)
      rw [scopedRest0_eq]
      iintro ⟨H, -⟩; iexact H)
    (hout := fun c => by
      show (BI.emp : sProp 𝕄) ⊢ iprop((BI.emp : sProp 𝕄) ∗ Pipeline.scopedRest spec0 c)
      rw [scopedRest0_eq]
      iintro H; isplitl [H]; · iexact H
      iempintro)
    (QY := fun _ _ => True)
    (hY := fun c s' => by
      iintro ⟨-, -, HSI⟩
      imodintro
      isplitr; · ipureintro; trivial
      iexact HSI)
    (hQ := fun s h c w => (h c).1 w)

/-! ## The argument array ends unchanged; the result array ends at the blocks written back -/

/-- The frame: the program runs, and the argument array ends as launched (an input window's array is never written,
    and the host conversion writes the bf16 copy only). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c 0).trans (((dats m 0 c).arrAt_in 0 rfl _).trans ((A_eq m c 0).trans (V_main_arg0 m c)))))
    (run_main m ρ)

/-- The run with the result array named: the output window's array after all 32 write-backs. -/
theorem run_value : θ_run defs (onTc (τ := τ) (main (F := F))) ⟨m, fun _ => 0, ρ⟩ (fun r => ∀ c : Dev nD,
      r.2.mem ((c.tc : Thread nD τ).loc main_v1) = (dats m 0 c).arrAt 3 cfg0.N
      ∧ r.2.mem ((c.tc : Thread nD τ).loc main_arg0) = m ((c.tc : Thread nD τ).loc main_arg0)) :=
  (θ_run defs _ _).mono (fun _ h c => ⟨h c 3,
      (h c 0).trans (((dats m 0 c).arrAt_in 0 rfl _).trans ((A_eq m c 0).trans (V_main_arg0 m c)))⟩)
    (run_main m ρ)

end Cert.Kernel.Run

end
-- ==== Proof.RunIdeal.lean ====
/-
  The run of the attention kernel's program, read off the pipeline rules by hand.

  The program converts the argument array to bf16 on the host and then launches one pipelined region over a
  grid of 8 × 4 points.  The region has four windows: the query tile (block (b, qi) of the argument, [1,512,512]),
  the keys (block b of the SAME argument array, [1,2048,512]), the values (block b of the converted copy) and the
  output tile (block (b, qi) of the result).  Two input windows read one array, so that array's ownership is dealt
  between them in halves when the region is entered, and each window ends holding its half of the unchanged array.

  At every point the body loads the three input blocks whole, loads the output block (a value it never uses), and
  stores ONE value covering the output block: the payload `k0_pay1` of the three loaded blocks.  So after the
  body the output window's buffer holds `out3` of the input blocks, the input windows' buffers hold their blocks as
  before, and nothing else is touched.  The pipeline rules then give the final arrays: every input array as it
  was, and the result array overwritten block by block with what the body left at each point (`Dat.arrAt`).
-/
import proofs.«147755_j40243843563672_2_alg».proof.Proof.Gen.KernelIdeal.Launch
import proofs.«147755_j40243843563672_2_alg».proof.Proof.Gen.KernelIdeal.Skeleton
import proofs.«147755_j40243843563672_2_alg».proof.Proof.Gen.KernelIdeal.Points
import Idealize.ShloMosaic.Lib.Pipeline.FrameBody
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- The buffers as the region finds them: the launch contents after the host's conversion. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is the host conversion followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The conversion writes the bf16 copy only: the argument array is found as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's buffer holds its block at every point, fetched there or not (where it is not fetched the block
    index has not moved), for any proof data on these arrays whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves -/

abbrev rq : Rect S1x512x512 := Rect.unit (s := S1x512x512) ![0, 0, 0] S1x512x512.size inb_S1x512x512_S1x512x512_0_0_0
abbrev rk : Rect S1x2048x512 := Rect.unit (s := S1x2048x512) ![0, 0, 0] S1x2048x512.size inb_S1x2048x512_S1x2048x512_0_0_0

/-- The output window's buffer after the body, from the input blocks: its one store, which covers the block. -/
def out3 (x0 : Vec F S1x512x512 .f32) (x1 : Vec F S1x2048x512 .f32) (x2 : Vec F S1x2048x512 .bf16) : Vec F S1x512x512 .f32 :=
  View.canon [⟨rq, k0_pay1 (View.ld x0 rq) (View.ld x1 rk) (View.ld x2 rk)⟩]

/-- The one store covers the block. -/
theorem cover3 (p0 : Vec F S1x512x512 .f32) (y : S1x512x512.Idx) :
    ∃ pc ∈ ([⟨rq, p0⟩] : List (View.Piece (Elt F) S1x512x512 .f32)), y ∈ pc.1.set :=
  View.cover_of_tiled [⟨rq, p0⟩] S1x512x512.size (by rfl) y

/-! ## The body's triple -/

set_option maxHeartbeats 1000000 in
/-- On whole staging memrefs, the inputs' at read contents `x0 x1 x2` and the output's at anything, the body runs to
    the continuation holding the inputs' as they were and the output's at `out3` of them. -/
theorem sound_kernel (c : Dev nD) (E : Set ℕ) (i : grid0.Coords)
    (arg2 : Memref sig .tc .vmem S1x512x512 .f32) (harg2 : arg2.IsWhole) (arg3 : Memref sig .tc .vmem S1x2048x512 .f32) (harg3 : arg3.IsWhole)
    (arg4 : Memref sig .tc .vmem S1x2048x512 .bf16) (harg4 : arg4.IsWhole) (arg5 : Memref sig .tc .vmem S1x512x512 .f32) (harg5 : arg5.IsWhole)
    (x0 : Vec F S1x512x512 .f32) (x1 : Vec F S1x2048x512 .f32) (x2 : Vec F S1x2048x512 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out3 x0 x1 x2)) -∗ K ⟨⟩))
      ⊢ wp frame (wpE (defs₀ (F := F)) Variants.none c none) E (cc0__attn_kernel i arg2 harg2 arg3 harg3 arg4 harg4 arg5 harg5) K := by
  simp only [cc0__attn_kernel_eq_skeleton]; unfold cc0__attn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

/-! ## The proof data -/

/-- The region's proof data on core `c`: the arrays as the region finds them; after the body each input window's
    buffer at its block and the output's at `out3` of the input blocks; nothing carried between points; nothing
    owed; the argument array's ownership dealt in halves to the two windows that read it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out3 (iblk m c 0 t) (iblk m c 1 t) (iblk m c 2 t)
  Φ _ := BI.emp
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = out3 (iblk m c 0 t) (iblk m c 1 t) (iblk m c 2 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

end Cert.KernelIdeal.Run

end
-- ==== Proof.LaunchIdeal.lean ====
/-
  The launch of the attention kernel's region and the program's run.

  When the region is entered the three buffers behind the four windows' arrays are owned whole.  The query window
  and the key window read the same array, so its ownership is split into two halves, one per window; the converted
  copy goes to the value window and the result array to the output window, each whole.  Nothing else is handed to
  the body: the program has no other buffer, scoped or not.  The pipeline's launch rule for windows that share an
  array then gives the run: every weakly fair execution ends, nothing faulting, with each window's array at what
  the rule computes from the proof data.
-/
import proofs.«147755_j40243843563672_2_alg».proof.Proof.RunIdeal

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Entering the region: the arrays' ownership dealt to the windows -/

/-- The three buffers behind the windows' arrays, each owned whole, are the four windows' arrays at their shares: the
    argument array's ownership splits into the halves the query window and the key window hold. -/
theorem hsplit (c : Dev nD) :
    (Pipeline.arrBufs (Ix := Unit) (Name := ℕ) (U := UR sig nD τ) (Lvl := ℕ) (Val := Elt F) spec0 c (V m c) : sProp 𝕄)
      ⊢ (dats m 0 c).arrays ((dats m 0 c).arrAt · 0) := by
  unfold Pipeline.arrBufs Dat.arrays
  rw [bigSep_W0, bigSep_eq_bigSepL_of_eq [main_arg0, main_v0, main_v1] (by decide) (by decide)]
  simp only [bigSepL_cons_cons, bigSepL_singleton]
  rw [View.set_whole, View.set_whole, View.set_whole,
    show (dats m 0 c).share 0 = fullShare.left from rfl, show (dats m 0 c).share 1 = fullShare.right from rfl,
    show (dats m 0 c).share 2 = fullShare from rfl, show (dats m 0 c).share 3 = fullShare from rfl]
  show iprop(_ ∗ _ ∗ _) ⊢ _
  iintro ⟨Ha, Hv0, Hv1⟩
  ihave Ha' := (pointsTo_share (PosShare.mem_left_op_right fullShare)).1 $$ Ha
  icases Ha' with ⟨HaL, HaR⟩
  isplitl [HaL]; · iexact HaL
  isplitl [HaR]; · iexact HaR
  isplitl [Hv0]; · iexact Hv0
  iexact Hv1

/-! ## The run -/

set_option backward.isDefEq.respectTransparency.types false in
/-- Every weakly fair execution of the program ends, nothing faulting, with each window's array at what the pipeline
    rules compute from the proof data. -/
theorem run_main : θ_run defs (onTc (τ := τ) (main (F := F))) (s₀ m ρ)
    (fun r => ∀ c : Dev nD, ∀ w, r.2.mem (((cfgs 0).spec w).arr.view.loc (c.tc : Thread nD τ)) = (dats m 0 c).arrAt w (cfgs 0).N) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m Variants.none) (hsplit := hsplit m)
    (X := fun _ => BI.emp) (Y := fun _ => BI.emp) (Z := fun _ => BI.emp)
    (hX := fun c => by
      show (Pipeline.unscopedRest spec0 c (V m c) : sProp 𝕄) ⊢ iprop(BI.emp ∗ BI.emp)
      rw [unscopedRest0_eq]
      iintro H; isplitl [H]; · iexact H
      iempintro)
    (hin := fun c => by
      show iprop((BI.emp : sProp 𝕄) ∗ Pipeline.scopedRest spec0 c) ⊢ (BI.emp : sProp 𝕄)
      rw [scopedRest0_eq]
      iintro ⟨H, -⟩; iexact H)
    (hout := fun c => by
      show (BI.emp : sProp 𝕄) ⊢ iprop((BI.emp : sProp 𝕄) ∗ Pipeline.scopedRest spec0 c)
      rw [scopedRest0_eq]
      iintro H; isplitl [H]; · iexact H
      iempintro)
    (QY := fun _ _ => True)
    (hY := fun c s' => by
      iintro ⟨-, -, HSI⟩
      imodintro
      isplitr; · ipureintro; trivial
      iexact HSI)
    (hQ := fun s h c w => (h c).1 w)

/-! ## The argument array ends unchanged; the result array ends at the blocks written back -/

/-- The frame: the program runs, and the argument array ends as launched (an input window's array is never written,
    and the host conversion writes the bf16 copy only). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c 0).trans (((dats m 0 c).arrAt_in 0 rfl _).trans ((A_eq m c 0).trans (V_main_arg0 m c)))))
    (run_main m ρ)

/-- The run with the result array named: the output window's array after all 32 write-backs. -/
theorem run_value : θ_run defs (onTc (τ := τ) (main (F := F))) ⟨m, fun _ => 0, ρ⟩ (fun r => ∀ c : Dev nD,
      r.2.mem ((c.tc : Thread nD τ).loc main_v1) = (dats m 0 c).arrAt 3 cfg0.N
      ∧ r.2.mem ((c.tc : Thread nD τ).loc main_arg0) = m ((c.tc : Thread nD τ).loc main_arg0)) :=
  (θ_run defs _ _).mono (fun _ h c => ⟨h c 3,
      (h c 0).trans (((dats m 0 c).arrAt_in 0 rfl _).trans ((A_eq m c 0).trans (V_main_arg0 m c)))⟩)
    (run_main m ρ)

end Cert.KernelIdeal.Run

end
-- ==== Proof.Spec.lean ====
/-
  Self-attention with queries, keys and values all one array, stated row by row over the extended reals.

  For one query row `q` (512 features), keys `K` and values `V` (2048 rows of 512 features each):
  the scores are `s j = ∑ d, q d * K j d`, their maximum `mx` is the fold of `max` from −∞ over the 2048 keys,
  the weights are `w j = exp (s j - mx)`, and the output at feature `c` is the weighted sum of the values
  divided by the sum of the weights.  Two arrangements of the last step are stated: the quotient of the sums
  (`attnRow`), and the sum of the normalised weights times the values (`attnRowRef`); they agree when every
  entry is a real number (Proof/Law.lean).  `G` and `Gref` are the two arrangements over a whole
  [8, 2048, 512] array.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- The shape of the argument and of the result. -/
abbrev SX : Shape := ⟨3, ![8, 2048, 512]⟩

/-- The value both programs start their row maximum from: the f32 word of −∞. -/
def negInf : EReal := Ideal.ofBits .f32 0xFF800000#32

/-- The score of key `j` against the query row. -/
def scoreRow (q : Fin 512 → EReal) (K : Fin 2048 → Fin 512 → EReal) (j : Fin 2048) : EReal :=
  ∑ d : Fin 512, q d * K j d

/-- The row's maximum score, folded from −∞. -/
def maxRow (q : Fin 512 → EReal) (K : Fin 2048 → Fin 512 → EReal) : EReal :=
  (Finset.univ : Finset (Fin 2048)).fold max negInf (fun j => scoreRow q K j)

/-- The unnormalised weight of key `j`. -/
def weightRow (q : Fin 512 → EReal) (K : Fin 2048 → Fin 512 → EReal) (j : Fin 2048) : EReal :=
  Ideal.exp (scoreRow q K j - maxRow q K)

/-- The sum of the weights. -/
def denomRow (q : Fin 512 → EReal) (K : Fin 2048 → Fin 512 → EReal) : EReal :=
  ∑ j : Fin 2048, weightRow q K j

/-- The attention output at feature `c`, as the quotient of the weighted sum of the values by the sum of the weights. -/
def attnRow (q : Fin 512 → EReal) (K V : Fin 2048 → Fin 512 → EReal) (c : Fin 512) : EReal :=
  Ideal.div (∑ j : Fin 2048, weightRow q K j * V j c) (denomRow q K)

/-- The same output with each weight normalised first. -/
def attnRowRef (q : Fin 512 → EReal) (K V : Fin 2048 → Fin 512 → EReal) (c : Fin 512) : EReal :=
  ∑ j : Fin 2048, Ideal.div (weightRow q K j) (denomRow q K) * V j c

/-- Row `i` of batch `b` of an array. -/
def rowOf (x : SX.Idx → EReal) (b : Fin 8) (i : Fin 2048) : Fin 512 → EReal := fun d => x (ix3 b i d)

/-- Batch `b` of an array, as 2048 rows. -/
def batchOf (x : SX.Idx → EReal) (b : Fin 8) : Fin 2048 → Fin 512 → EReal := fun j d => x (ix3 b j d)

/-- The whole result, quotient-of-sums arrangement. -/
def G (x : SX.Idx → EReal) : SX.Idx → EReal :=
  fun idx => attnRow (rowOf x (idx 0) (idx 1)) (batchOf x (idx 0)) (batchOf x (idx 0)) (idx 2)

/-- The whole result, normalise-first arrangement. -/
def Gref (x : SX.Idx → EReal) : SX.Idx → EReal :=
  fun idx => attnRowRef (rowOf x (idx 0) (idx 1)) (batchOf x (idx 0)) (batchOf x (idx 0)) (idx 2)

end Cert.Attn

end
-- ==== Proof.Blocks.lean ====
/-
  From the blocks the attention kernel writes back to the whole result array, at the extended reals.

  The grid has 8 x 4 points; point t is (b, qi) = (t / 4, t % 4).  At that point the query window holds rows
  512 qi .. 512 qi + 511 of batch b of the argument, the key window holds batch b of the argument, the value
  window holds batch b of the converted copy of the argument (at the extended reals the conversion changes
  nothing), and the output window's block is rows 512 qi .. 512 qi + 511 of batch b of the result.  What the
  body leaves at (0, p, q) of that block is the payload of the three input blocks, which is the attention of
  query row 512 qi + p of batch b against batch b: the whole-array function G at (b, 512 qi + p, q).  The 32
  blocks tile the array: index (b, r, q) lies in the block of point 4 b + r / 512.
-/
import proofs.«147755_j40243843563672_2_alg».proof.Proof.RunIdeal
import proofs.«147755_j40243843563672_2_alg».proof.Proof.Spec
import Idealize.ShloMosaic.Lib.Pipeline.Value
import Idealize.ShloMosaic.Lib.ValueIdx
import Idealize.ShloMosaic.Lib.StableHlo.Run

noncomputable section

namespace Cert.KernelIdeal.Blocks

open Cert.KernelIdeal Cert.KernelIdeal.Gen Cert.KernelIdeal.Run Idealize.ShloMosaic Idealize.ShloMosaic.TcCoe
  Idealize.SL.Sem Idealize.ShloMosaic.ValueIdx Idealize.ShloMosaic.Pipeline

section
variable (m : (ℓ : Loc nD τ sig) → Buf (Elt Ideal) ℓ)

theorem hz : (![0, 0, 0] : Fin 3 → Nat) = fun _ => 0 := funext fun a => by fin_cases a <;> rfl

/-! ## The index maps over the grid -/

/-- The printed index maps, decided over the grid: at point t the query and output windows are at block
    (t / 4, t % 4, 0), the key and value windows at block (t / 4, 0, 0). -/
theorem idx_facts : ∀ t : Fin cfg0.N,
      win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = 0 ∧ win0_2.index t (2 : Fin 3) = 0
    ∧ win0_3.index t (0 : Fin 3) = t.val / 4 ∧ win0_3.index t (1 : Fin 3) = t.val % 4 ∧ win0_3.index t (2 : Fin 3) = 0 :=
  (by decide +kernel : ∀ t : Fin grid0.N, _)

/-! ## The input blocks, read off their arrays -/

/-- The query block at point t, at (0, p, d), is the argument at (t / 4, 512 (t % 4) + p, d). -/
theorem iblk0_apply (c : Dev nD) (t : Fin cfg0.N) (y : S1x512x512.Idx) (k : S8x2048x512.Idx)
    (hk0 : (k 0).val = t.val / 4) (hk1 : (k 1).val = 512 * (t.val % 4) + (y 1).val) (hk2 : (k 2).val = (y 2).val) :
    (iblk (F := Ideal) m c 0 t : Vec Ideal S1x512x512 .f32) y = (V m c main_arg0 : S8x2048x512.Idx → EReal) k := by
  obtain ⟨e0, e1, e2, -⟩ := idx_facts t
  have hy0 : (y 0).val < 1 := (y 0).isLt
  unfold iblk
  rw [View.read_apply]
  show (V m c main_arg0 : S8x2048x512.Idx → EReal) (((cfg0.win 0).blk t).view.emb y) = _
  refine congrArg (V m c main_arg0 : S8x2048x512.Idx → EReal) (funext fun a => Fin.ext ?_)
  match a with
  | ⟨0, _⟩ => show win0_0.index t (0 : Fin 3) * 1 + 1 * (y 0).val = (k 0).val; omega
  | ⟨1, _⟩ => show win0_0.index t (1 : Fin 3) * 512 + 1 * (y 1).val = (k 1).val; omega
  | ⟨2, _⟩ => show win0_0.index t (2 : Fin 3) * 512 + 1 * (y 2).val = (k 2).val; omega

/-- The key block at point t, at (0, j, d), is the argument at (t / 4, j, d). -/
theorem iblk1_apply (c : Dev nD) (t : Fin cfg0.N) (y : S1x2048x512.Idx) (k : S8x2048x512.Idx)
    (hk0 : (k 0).val = t.val / 4) (hk1 : (k 1).val = (y 1).val) (hk2 : (k 2).val = (y 2).val) :
    (iblk (F := Ideal) m c 1 t : Vec Ideal S1x2048x512 .f32) y = (V m c main_arg0 : S8x2048x512.Idx → EReal) k := by
  obtain ⟨-, -, -, e0, e1, e2, -⟩ := idx_facts t
  have hy0 : (y 0).val < 1 := (y 0).isLt
  unfold iblk
  rw [View.read_apply]
  show (V m c main_arg0 : S8x2048x512.Idx → EReal) (((cfg0.win 1).blk t).view.emb y) = _
  refine congrArg (V m c main_arg0 : S8x2048x512.Idx → EReal) (funext fun a => Fin.ext ?_)
  match a with
  | ⟨0, _⟩ => show win0_1.index t (0 : Fin 3) * 1 + 1 * (y 0).val = (k 0).val; omega
  | ⟨1, _⟩ => show win0_1.index t (1 : Fin 3) * 2048 + 1 * (y 1).val = (k 1).val; omega
  | ⟨2, _⟩ => show win0_1.index t (2 : Fin 3) * 512 + 1 * (y 2).val = (k 2).val; omega

/-- The value block at point t, at (0, j, d), is the converted copy at (t / 4, j, d). -/
theorem iblk2_apply (c : Dev nD) (t : Fin cfg0.N) (y : S1x2048x512.Idx) (k : S8x2048x512.Idx)
    (hk0 : (k 0).val = t.val / 4) (hk1 : (k 1).val = (y 1).val) (hk2 : (k 2).val = (y 2).val) :
    (iblk (F := Ideal) m c 2 t : Vec Ideal S1x2048x512 .bf16) y = (V m c main_v0 : S8x2048x512.Idx → EReal) k := by
  obtain ⟨-, -, -, -, -, -, e0, e1, e2, -⟩ := idx_facts t
  have hy0 : (y 0).val < 1 := (y 0).isLt
  unfold iblk
  rw [View.read_apply]
  show (V m c main_v0 : S8x2048x512.Idx → EReal) (((cfg0.win 2).blk t).view.emb y) = _
  refine congrArg (V m c main_v0 : S8x2048x512.Idx → EReal) (funext fun a => Fin.ext ?_)
  match a with
  | ⟨0, _⟩ => show win0_2.index t (0 : Fin 3) * 1 + 1 * (y 0).val = (k 0).val; omega
  | ⟨1, _⟩ => show win0_2.index t (1 : Fin 3) * 2048 + 1 * (y 1).val = (k 1).val; omega
  | ⟨2, _⟩ => show win0_2.index t (2 : Fin 3) * 512 + 1 * (y 2).val = (k 2).val; omega

/-- At the extended reals the converted copy is the argument. -/
theorem V_main_v0 (c : Dev nD) :
    (V m c main_v0 : S8x2048x512.Idx → EReal) = (m ((c : Thread nD τ).loc main_arg0) : S8x2048x512.Idx → EReal) := by
  have e : @Eq (FVec Ideal S8x2048x512 .bf16) (V m c main_v0)
      (truncf .bf16 (m ((c : Thread nD τ).loc main_arg0) : FVec Ideal S8x2048x512 .f32) bitsLt_bf16_f32) := by
    dsimp only [Run.V, Gen.hostOps0]; after_results
  rw [e]
  funext i
  exact truncf_apply _ _ i

/-! ## What a point writes back -/

/-- The payload's reading, taken as a hypothesis here. -/
abbrev PayReads : Prop :=
  ∀ (x0 : Vec Ideal S1x512x512 .f32) (x1 : Vec Ideal S1x2048x512 .f32) (x2 : Vec Ideal S1x2048x512 .bf16) (p q : Fin 512),
    k0_pay1 (F := Ideal) x0 x1 x2 (ix3 (0 : Fin 1) p q)
      = Cert.Attn.attnRow (fun d => x0 (ix3 (0 : Fin 1) p d)) (fun j d => x1 (ix3 (0 : Fin 1) j d))
          (fun j d => x2 (ix3 (0 : Fin 1) j d)) q

/-- The payload of three blocks that are rows 512 qi .. 512 qi + 511 of batch b, batch b and batch b of one array X,
    at (0, p, q), is G of X at (b, 512 qi + p, q). -/
theorem pay_at (hpay : PayReads) (X : S8x2048x512.Idx → EReal) (b : Fin 8) (qi : Fin 4)
    (x0 : Vec Ideal S1x512x512 .f32) (x1 : Vec Ideal S1x2048x512 .f32) (x2 : Vec Ideal S1x2048x512 .bf16)
    (h0 : ∀ (p d : Fin 512) (r : Fin 2048), r.val = 512 * qi.val + p.val → x0 (ix3 (0 : Fin 1) p d) = X (ix3 b r d))
    (h1 : ∀ (j : Fin 2048) (d : Fin 512), x1 (ix3 (0 : Fin 1) j d) = X (ix3 b j d))
    (h2 : ∀ (j : Fin 2048) (d : Fin 512), x2 (ix3 (0 : Fin 1) j d) = X (ix3 b j d))
    (p q : Fin 512) (r : Fin 2048) (hr : r.val = 512 * qi.val + p.val) :
    k0_pay1 (F := Ideal) x0 x1 x2 (ix3 (0 : Fin 1) p q) = Cert.Attn.G X (ix3 b r q) := by
  have e0 : (fun d => x0 (ix3 (0 : Fin 1) p d)) = Cert.Attn.rowOf X b r := funext fun d => h0 p d r hr
  have e1 : (fun j d => x1 (ix3 (0 : Fin 1) j d)) = Cert.Attn.batchOf X b := funext fun j => funext fun d => h1 j d
  have e2 : (fun j d => x2 (ix3 (0 : Fin 1) j d)) = Cert.Attn.batchOf X b := funext fun j => funext fun d => h2 j d
  rw [hpay, e0, e1, e2]
  rfl

/-- The same over index variables: three blocks that read one array X at the places point number n's windows
    name, give, at an index y of the output block, G of X at the place k the output window names for y. -/
theorem point_at (hpay : PayReads) (X : S8x2048x512.Idx → EReal) (n : Nat)
    (x0 : Vec Ideal S1x512x512 .f32) (x1 : Vec Ideal S1x2048x512 .f32) (x2 : Vec Ideal S1x2048x512 .bf16)
    (h0 : ∀ (y : S1x512x512.Idx) (k : S8x2048x512.Idx), (k 0).val = n / 4 → (k 1).val = 512 * (n % 4) + (y 1).val →
      (k 2).val = (y 2).val → x0 y = X k)
    (h1 : ∀ (y : S1x2048x512.Idx) (k : S8x2048x512.Idx), (k 0).val = n / 4 → (k 1).val = (y 1).val →
      (k 2).val = (y 2).val → x1 y = X k)
    (h2 : ∀ (y : S1x2048x512.Idx) (k : S8x2048x512.Idx), (k 0).val = n / 4 → (k 1).val = (y 1).val →
      (k 2).val = (y 2).val → x2 y = X k)
    (y : S1x512x512.Idx) (k : S8x2048x512.Idx)
    (hk0 : (k 0).val = n / 4) (hk1 : (k 1).val = 512 * (n % 4) + (y 1).val) (hk2 : (k 2).val = (y 2).val) :
    k0_pay1 (F := Ideal) x0 x1 x2 y = Cert.Attn.G X k := by
  obtain ⟨y0, p, q, rfl⟩ : ∃ (y0 : Fin 1) (p q : Fin 512), y = ix3 y0 p q := ⟨y 0, y 1, y 2, eq_ix3 y⟩
  obtain ⟨b, r, q', rfl⟩ : ∃ (b : Fin 8) (r : Fin 2048) (q' : Fin 512), k = ix3 b r q' := ⟨k 0, k 1, k 2, eq_ix3 k⟩
  obtain rfl : y0 = 0 := Subsingleton.elim _ _
  have hq : q' = q := Fin.ext hk2
  subst hq
  have hb : b.val = n / 4 := hk0
  have hr : r.val = 512 * (n % 4) + p.val := hk1
  exact pay_at hpay X b ⟨n % 4, Nat.mod_lt _ (by decide)⟩ x0 x1 x2
    (fun p d r hr => h0 (ix3 (0 : Fin 1) p d) (ix3 b r d) hb hr rfl)
    (fun j d => h1 (ix3 (0 : Fin 1) j d) (ix3 b j d) hb rfl rfl)
    (fun j d => h2 (ix3 (0 : Fin 1) j d) (ix3 b j d) hb rfl rfl) p q' r hr

/-- WHAT POINT t WRITES BACK is block t of G of the argument. -/
theorem flushed_eq (hpay : PayReads) (c : Dev nD) (t : Fin cfg0.N) :
    (dats (F := Ideal) m 0 c).flushed 3 t
      = ((cfg0.win 3).blk t).view.read (Elt Ideal) (Cert.Attn.G (m ((c : Thread nD τ).loc main_arg0))) := by
  show (cfg0.win 3).cut (grid0.coords t) ((dats (F := Ideal) m 0 c).after 3 t) = _
  rw [after3]
  unfold out3
  rw [View.canon_unit_zero hz]
  simp only [View.ld_unit_zero (S := S1x512x512) hz, View.ld_unit_zero (S := S1x2048x512) hz]
  obtain ⟨-, -, -, -, -, -, -, -, -, e0, e1, e2⟩ := idx_facts t
  funext y
  rw [View.read_apply]
  show k0_pay1 (F := Ideal) (iblk m c 0 t) (iblk m c 1 t) (iblk m c 2 t) y
    = Cert.Attn.G (m ((c : Thread nD τ).loc main_arg0)) (((cfg0.win 3).blk t).view.emb y)
  have hy0 : (y 0).val < 1 := (y 0).isLt
  refine point_at hpay (m ((c : Thread nD τ).loc main_arg0)) t.val (iblk m c 0 t) (iblk m c 1 t) (iblk m c 2 t)
    (fun y k a b c' => (iblk0_apply m c t y k a b c').trans (congrFun (V_main_arg0 m c) k))
    (fun y k a b c' => (iblk1_apply m c t y k a b c').trans (congrFun (V_main_arg0 m c) k))
    (fun y k a b c' => (iblk2_apply m c t y k a b c').trans (congrFun (V_main_v0 m c) k))
    y (((cfg0.win 3).blk t).view.emb y) ?_ ?_ ?_
  · show win0_3.index t (0 : Fin 3) * 1 + 1 * (y 0).val = t.val / 4; omega
  · show win0_3.index t (1 : Fin 3) * 512 + 1 * (y 1).val = 512 * (t.val % 4) + (y 1).val; omega
  · show win0_3.index t (2 : Fin 3) * 512 + 1 * (y 2).val = (y 2).val; omega

end

/-! ## The blocks tile the array -/

/-- An index of the array is in point t's block iff each coordinate is in the block's range on its axis. -/
theorem mem_blk (t : Fin cfg0.N) (i : S8x2048x512.Idx) :
    i ∈ ((cfg0.win 3).blk t).view.set ↔ ∀ a : Fin 3, win0_3.index t a * S1x512x512.size a ≤ (i a).val
      ∧ (i a).val < win0_3.index t a * S1x512x512.size a + S1x512x512.size a := by
  show i ∈ ((View.whole main_v1).slice (win0_3.rect t)).set ↔ _
  rw [View.set_slice_whole, Rect.mem_set_unit]
  exact Iff.rfl

/-- Index (b, r, q) lies in the block of point 4 b + r / 512. -/
theorem cover (i : S8x2048x512.Idx) :
    ∃ t : Fin cfg0.N, (cfg0.win 3).flush t = true ∧ i ∈ ((cfg0.win 3).blk t).view.set := by
  have hi0 : (i 0).val < 8 := (i 0).isLt
  have hi1 : (i 1).val < 2048 := (i 1).isLt
  have hi2 : (i 2).val < 512 := (i 2).isLt
  have hN : grid0.N = 32 := N_0
  obtain ⟨t, ht⟩ : ∃ t : Fin cfg0.N, t.val = 4 * (i 0).val + (i 1).val / 512 :=
    ⟨⟨4 * (i 0).val + (i 1).val / 512, by show _ < grid0.N; omega⟩, rfl⟩
  obtain ⟨-, -, -, -, -, -, -, -, -, e0, e1, e2⟩ := idx_facts t
  refine ⟨t, flush0_3 t, ?_⟩
  rw [mem_blk]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 512 ≤ (i 1).val ∧ (i 1).val < win0_3.index t (1 : Fin 3) * 512 + 512
    omega
  | ⟨2, _⟩ =>
    show win0_3.index t (2 : Fin 3) * 512 ≤ (i 2).val ∧ (i 2).val < win0_3.index t (2 : Fin 3) * 512 + 512
    omega

/-! ## The whole result array -/

/-- THE ARRAY after the run: G of the argument. -/
theorem final3
    (hpay : ∀ (x0 : Vec Ideal S1x512x512 .f32) (x1 : Vec Ideal S1x2048x512 .f32) (x2 : Vec Ideal S1x2048x512 .bf16) (p q : Fin 512),
      k0_pay1 (F := Ideal) x0 x1 x2 (ix3 (0 : Fin 1) p q)
        = Cert.Attn.attnRow (fun d => x0 (ix3 (0 : Fin 1) p d)) (fun j d => x1 (ix3 (0 : Fin 1) j d)) (fun j d => x2 (ix3 (0 : Fin 1) j d)) q)
    (m : (ℓ : Loc nD τ sig) → Buf (Elt Ideal) ℓ) (c : Dev nD) :
    (dats (F := Ideal) m 0 c).arrAt 3 cfg0.N = Cert.Attn.G (m ((c : Thread nD τ).loc main_arg0)) :=
  (dats (F := Ideal) m 0 c).arrAt_eq_of_cover 3 (Cert.Attn.G (m ((c : Thread nD τ).loc main_arg0)))
    (fun t _ => flushed_eq m hpay c t) cover

end Cert.KernelIdeal.Blocks

end
-- ==== Proof.Payload.lean ====
/-
  The value the kernel body stores, read at one index, at the ideal values.

  The body loads a query block `x0` ([1, 512, 512]), a key block `x1` and a value block `x2` ([1, 2048, 512] each) and stores
  one [1, 512, 512] block.  At row `p` and feature `c` that block is the attention output of the specification
  (`Cert.Attn.attnRow`): the scores of row `p` against the 2048 keys, their maximum from −∞, the exponentials of the
  differences, and the sum of the exponentials times the values divided by the sum of the exponentials.

  The file first reads each operation that is not pointwise at an index given by coordinates (the two shape casts and the
  broadcast of a column, the two reductions along a row, the two matrix products), over variables; `pay_apply` then
  chains them through the payload.
-/
import proofs.«147755_j40243843563672_2_alg».proof.Proof.Gen.KernelIdeal.Skeleton
import proofs.«147755_j40243843563672_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelSide

open Idealize.ShloMosaic Idealize.ShloMosaic.ValueIdx Cert.KernelIdeal

/-! ## A column: a vector cast to one, and one broadcast along the rows -/

/-- An `[a]` vector cast to the column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A reduction along the rows of a matrix -/

/-- The row index `p` with the column `k` put back is `(p, k)`. -/
theorem lift_row {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- The maximum along each row, from the accumulator's value: at row `p` the fold of `max` over the row's entries. -/
theorem rowMax_apply {m n : ℕ} {φ : FTy} (src : FVec Ideal ⟨2, ![m, n]⟩ φ) (acc : BitVec φ.bits)
    (h : (⟨2, ![m, n]⟩ : Shape).Reduces [1] (⟨1, ![m]⟩ : Shape)) (hφ : FKind.Formats φ)
    (hacc : acc = FKind.maximumf.neutral φ hφ) (p : Fin m) :
    multiReduction (F := Ideal) .maximumf [1] ⟨1, ![m]⟩ src acc h hφ hacc (ix1 p)
      = (Finset.univ : Finset (Fin n)).fold max (Ideal.ofBits φ acc) (fun j => src (ix2 p j)) := by
  refine (Ideal.multiReduction_maximumf_single src acc h hφ hacc (ix1 p)).trans ?_
  have hf : (src ∘ h.lift (ix1 p)) = fun j : Fin n => src (ix2 p j) :=
    funext fun k => congrArg src (lift_row h p k)
  exact congrArg (fun f => Finset.fold max (Ideal.ofBits φ acc) f (Finset.univ : Finset (Fin n))) hf

/-- The sum along each row: at row `p` the sum of the row's entries. -/
theorem rowSum_apply {m n : ℕ} {φ : FTy} (src : FVec Ideal ⟨2, ![m, n]⟩ φ) (acc : BitVec φ.bits)
    (h : (⟨2, ![m, n]⟩ : Shape).Reduces [1] (⟨1, ![m]⟩ : Shape)) (hφ : FKind.Formats φ)
    (hacc : acc = FKind.add.neutral φ hφ) (p : Fin m) :
    multiReduction (F := Ideal) .add [1] ⟨1, ![m]⟩ src acc h hφ hacc (ix1 p) = ∑ j : Fin n, src (ix2 p j) :=
  (Ideal.multiReduction_add_single src acc h hφ hacc (ix1 p)).trans
    (Finset.sum_congr rfl fun k _ => congrArg src (lift_row h p k))

/-! ## The two matrix products -/

/-- The left operand's row coordinate in the first product is the result's row. -/
theorem scores_lhs0 (i : S512x2048.Idx) (q : dot_S512x512_S2048x512_S512x2048_1_1_0_0_n_n.contr.Idx) : (dot_S512x512_S2048x512_S512x2048_1_1_0_0_n_n.lhsIdx i q 0).val = (i 0).val := by
  unfold DotDims.lhsIdx
  rw [dif_neg (show ¬(0 : Fin S512x512.rank) ∈ dot_S512x512_S2048x512_S512x2048_1_1_0_0_n_n.lhsBatch by decide),
    dif_pos (show (0 : Fin S512x512.rank) ∈ dot_S512x512_S2048x512_S512x2048_1_1_0_0_n_n.lhsNonContracting by decide)]
  rfl
/-- The right operand's row coordinate in the first product is the result's column. -/
theorem scores_rhs0 (i : S512x2048.Idx) (q : dot_S512x512_S2048x512_S512x2048_1_1_0_0_n_n.contr.Idx) : (dot_S512x512_S2048x512_S512x2048_1_1_0_0_n_n.rhsIdx i q 0).val = (i 1).val := by
  unfold DotDims.rhsIdx
  rw [dif_neg (show ¬(0 : Fin S2048x512.rank) ∈ dot_S512x512_S2048x512_S512x2048_1_1_0_0_n_n.rhsBatch by decide),
    dif_pos (show (0 : Fin S2048x512.rank) ∈ dot_S512x512_S2048x512_S512x2048_1_1_0_0_n_n.rhsNonContracting by decide)]
  rfl

/-- The first product contracts the feature axis of both operands: at `(p, j)` it is the sum over the features of
    row `p` of the left operand times row `j` of the right one. -/
theorem scores_apply (A : FVec Ideal S512x512 .f32) (B : FVec Ideal S2048x512 .f32) (prec : Option ContractPrecision)
    (p : Fin 512) (j : Fin 2048) :
    matmul dot_S512x512_S2048x512_S512x2048_1_1_0_0_n_n prec A B (constant (F := Ideal) S512x2048 .f32 0x00000000#32) (ix2 p j)
      = ∑ d : Fin 512, A (ix2 p d) * B (ix2 j d) := by
  show FloatOps.matmul dot_S512x512_S2048x512_S512x2048_1_1_0_0_n_n prec A B (constant (F := Ideal) S512x2048 .f32 0x00000000#32) (ix2 p j) = _
  rw [Ideal.matmul_constant_zero_apply, ← Equiv.sum_comp (contrEquiv1 dot_S512x512_S2048x512_S512x2048_1_1_0_0_n_n 512 rfl rfl).symm]
  refine Finset.sum_congr rfl fun k _ => ?_
  have hk := contrEquiv1_symm_val dot_S512x512_S2048x512_S512x2048_1_1_0_0_n_n 512 rfl rfl k
  have el : dot_S512x512_S2048x512_S512x2048_1_1_0_0_n_n.lhsIdx (ix2 p j) ((contrEquiv1 dot_S512x512_S2048x512_S512x2048_1_1_0_0_n_n 512 rfl rfl).symm k) = ix2 p k :=
    funext fun a => Fin.ext (by
      match a with
      | ⟨0, _⟩ => exact scores_lhs0 _ _
      | ⟨1, _⟩ => exact (dot_S512x512_S2048x512_S512x2048_1_1_0_0_n_n.lhsIdx_val_of_single rfl _ _).trans hk)
  have er : dot_S512x512_S2048x512_S512x2048_1_1_0_0_n_n.rhsIdx (ix2 p j) ((contrEquiv1 dot_S512x512_S2048x512_S512x2048_1_1_0_0_n_n 512 rfl rfl).symm k) = ix2 j k :=
    funext fun a => Fin.ext (by
      match a with
      | ⟨0, _⟩ => exact scores_rhs0 _ _
      | ⟨1, _⟩ => exact (dot_S512x512_S2048x512_S512x2048_1_1_0_0_n_n.rhsIdx_val_of_single rfl _ _).trans hk)
  rw [el, er]

/-- The left operand's row coordinate in the second product is the result's row. -/
theorem mix_lhs0 (i : S512x512.Idx) (q : dot_S512x2048_S2048x512_S512x512_1_0_0_1_n_n.contr.Idx) : (dot_S512x2048_S2048x512_S512x512_1_0_0_1_n_n.lhsIdx i q 0).val = (i 0).val := by
  unfold DotDims.lhsIdx
  rw [dif_neg (show ¬(0 : Fin S512x2048.rank) ∈ dot_S512x2048_S2048x512_S512x512_1_0_0_1_n_n.lhsBatch by decide),
    dif_pos (show (0 : Fin S512x2048.rank) ∈ dot_S512x2048_S2048x512_S512x512_1_0_0_1_n_n.lhsNonContracting by decide)]
  rfl
/-- The right operand's column coordinate in the second product is the result's column. -/
theorem mix_rhs1 (i : S512x512.Idx) (q : dot_S512x2048_S2048x512_S512x512_1_0_0_1_n_n.contr.Idx) : (dot_S512x2048_S2048x512_S512x512_1_0_0_1_n_n.rhsIdx i q 1).val = (i 1).val := by
  unfold DotDims.rhsIdx
  rw [dif_neg (show ¬(1 : Fin S2048x512.rank) ∈ dot_S512x2048_S2048x512_S512x512_1_0_0_1_n_n.rhsBatch by decide),
    dif_pos (show (1 : Fin S2048x512.rank) ∈ dot_S512x2048_S2048x512_S512x512_1_0_0_1_n_n.rhsNonContracting by decide)]
  rfl

/-- The second product is the plain one: at `(p, c)` it is the sum over the 2048 keys of the left operand at `(p, j)`
    times the right one at `(j, c)`. -/
theorem mix_apply {φ₁ φ₂ : FTy} (W : FVec Ideal S512x2048 φ₁) (V : FVec Ideal S2048x512 φ₂) (prec : Option ContractPrecision)
    (p c : Fin 512) :
    matmul dot_S512x2048_S2048x512_S512x512_1_0_0_1_n_n prec W V (constant (F := Ideal) S512x512 .f32 0x00000000#32) (ix2 p c)
      = ∑ j : Fin 2048, W (ix2 p j) * V (ix2 j c) := by
  show FloatOps.matmul dot_S512x2048_S2048x512_S512x512_1_0_0_1_n_n prec W V (constant (F := Ideal) S512x512 .f32 0x00000000#32) (ix2 p c) = _
  rw [Ideal.matmul_constant_zero_apply, ← Equiv.sum_comp (contrEquiv1 dot_S512x2048_S2048x512_S512x512_1_0_0_1_n_n 2048 rfl rfl).symm]
  refine Finset.sum_congr rfl fun k _ => ?_
  have hk := contrEquiv1_symm_val dot_S512x2048_S2048x512_S512x512_1_0_0_1_n_n 2048 rfl rfl k
  have el : dot_S512x2048_S2048x512_S512x512_1_0_0_1_n_n.lhsIdx (ix2 p c) ((contrEquiv1 dot_S512x2048_S2048x512_S512x512_1_0_0_1_n_n 2048 rfl rfl).symm k) = ix2 p k :=
    funext fun a => Fin.ext (by
      match a with
      | ⟨0, _⟩ => exact mix_lhs0 _ _
      | ⟨1, _⟩ => exact (dot_S512x2048_S2048x512_S512x512_1_0_0_1_n_n.lhsIdx_val_of_single rfl _ _).trans hk)
  have er : dot_S512x2048_S2048x512_S512x512_1_0_0_1_n_n.rhsIdx (ix2 p c) ((contrEquiv1 dot_S512x2048_S2048x512_S512x512_1_0_0_1_n_n 2048 rfl rfl).symm k) = ix2 k c :=
    funext fun a => Fin.ext (by
      match a with
      | ⟨0, _⟩ => exact (dot_S512x2048_S2048x512_S512x512_1_0_0_1_n_n.rhsIdx_val_of_single rfl _ _).trans hk
      | ⟨1, _⟩ => exact mix_rhs1 _ _)
  rw [el, er]

/-! ## The weights, and the stored value at an index -/

/-- The exponential of a score less its row's maximum, read at `(p, j)`: the maximum is taken along the row, cast to a
    column and broadcast back along the row, so at `(p, j)` it is row `p`'s fold of `max` from −∞.  `s` names row `p` of
    the scores. -/
theorem weight_apply (v6 : FVec Ideal S512x2048 .f32) (hr : S512x2048.Reduces [1] S512) (hφ : FKind.Formats .f32)
    (hacc : (0xFF800000#32 : BitVec 32) = FKind.maximumf.neutral .f32 hφ)
    (hsc : S512.ShapeCasts S512x1) (hbc : S512x1.Broadcasts S512x2048) (p : Fin 512)
    (s : Fin 2048 → EReal) (hs : ∀ j, v6 (ix2 p j) = s j) (j : Fin 2048) :
    exp (subf v6 (broadcastTo S512x2048
        (shapeCast S512x1 (multiReduction (F := Ideal) .maximumf [1] S512 v6 0xFF800000#32 hr hφ hacc) hsc) hbc)) (ix2 p j)
      = Ideal.exp (s j - (Finset.univ : Finset (Fin 2048)).fold max Cert.Attn.negInf s) := by
  show Ideal.exp (v6 (ix2 p j) - broadcastTo S512x2048
        (shapeCast S512x1 (multiReduction (F := Ideal) .maximumf [1] S512 v6 0xFF800000#32 hr hφ hacc) hsc) hbc (ix2 p j)) = _
  rw [broadcastTo_a1_ab_apply, shapeCast_a_a1_apply, rowMax_apply, hs j,
    show (fun k => v6 (ix2 p k)) = s from funext hs]
  rfl

/-- THE STORED VALUE AT AN INDEX: at row `p` and feature `c` of its one block the body stores the attention output of the
    specification for query row `p` of `x0`, the keys `x1` and the values `x2`. -/
theorem pay_apply (x0 : Vec Ideal S1x512x512 .f32) (x1 : Vec Ideal S1x2048x512 .f32)
    (x2 : Vec Ideal S1x2048x512 .bf16) (p c : Fin 512) :
    Cert.KernelIdeal.Gen.k0_pay1 (F := Ideal) x0 x1 x2 (ix3 (0 : Fin 1) p c)
      = Cert.Attn.attnRow (fun d => x0 (ix3 (0 : Fin 1) p d)) (fun j d => x1 (ix3 (0 : Fin 1) j d))
          (fun j d => x2 (ix3 (0 : Fin 1) j d)) c := by
  unfold Cert.KernelIdeal.Gen.k0_pay1
  refine (shapeCast_ab_1ab_apply _ _ (0 : Fin 1) p c).trans ?_
  refine (divf_apply _ _ (ix2 p c)).trans ?_
  -- row `p` of the first product is the specification's scores
  have hS : ∀ j : Fin 2048,
      matmul dot_S512x512_S2048x512_S512x2048_1_1_0_0_n_n (some .fp32) (shapeCast S512x512 x0 Gen.shapeCasts_S1x512x512_S512x512)
          (shapeCast S2048x512 x1 Gen.shapeCasts_S1x2048x512_S2048x512)
          (constant (F := Ideal) S512x2048 .f32 0x00000000#32) (ix2 p j)
        = Cert.Attn.scoreRow (fun d => x0 (ix3 (0 : Fin 1) p d)) (fun j d => x1 (ix3 (0 : Fin 1) j d)) j := fun j =>
    (scores_apply _ _ _ p j).trans (Finset.sum_congr rfl fun d _ =>
      congrArg₂ (· * ·) (shapeCast_1ab_ab_apply x0 _ p d) (shapeCast_1ab_ab_apply x1 _ j d))
  generalize matmul dot_S512x512_S2048x512_S512x2048_1_1_0_0_n_n (some .fp32) (shapeCast S512x512 x0 Gen.shapeCasts_S1x512x512_S512x512)
      (shapeCast S2048x512 x1 Gen.shapeCasts_S1x2048x512_S2048x512)
      (constant (F := Ideal) S512x2048 .f32 0x00000000#32) = v6 at hS ⊢
  -- every weight of row `p` is the specification's
  have hW : ∀ j : Fin 2048,
      exp (subf v6 (broadcastTo S512x2048
          (shapeCast S512x1 (multiReduction (F := Ideal) .maximumf [1] S512 v6 0xFF800000#32 Gen.reduces_S512x2048_S512
            (.inl rfl) rfl) Gen.shapeCasts_S512_S512x1) Gen.broadcasts_S512x1_S512x2048)) (ix2 p j)
        = Cert.Attn.weightRow (fun d => x0 (ix3 (0 : Fin 1) p d)) (fun j d => x1 (ix3 (0 : Fin 1) j d)) j := fun j =>
    weight_apply v6 _ _ _ _ _ p _ hS j
  unfold Cert.Attn.attnRow Cert.Attn.denomRow
  refine congrArg₂ Ideal.div ?_ ?_
  · -- the numerator: the second product, its left operand the weights (the change of format is the identity)
    refine (mix_apply _ _ none p c).trans (Finset.sum_congr rfl fun j _ => ?_)
    refine congrArg₂ (· * ·) ?_ (shapeCast_1ab_ab_apply x2 _ j c)
    exact (truncf_apply (ψ := .bf16) _ Gen.bitsLt_bf16_f32 (ix2 p j)).trans (hW j)
  · -- the denominator: the row's sum of the weights, cast to a column and broadcast along the row
    refine (broadcastTo_a1_ab_apply _ _ p c).trans ?_
    refine (shapeCast_a_a1_apply _ _ p (0 : Fin 1)).trans ?_
    refine (rowSum_apply _ _ _ _ _ p).trans (Finset.sum_congr rfl fun j _ => hW j)

end Cert.KernelSide

end
-- ==== Proof.RefSide.lean ====
/-
  The reference program's result, read at the extended reals, is the normalise-first arrangement of
  self-attention (Spec.lean's Gref).

  Stage by stage, at batch b, query row i, key j, feature c:
  the scores are scoreRow; the fold of max from −∞ over the keys is maxRow, and taking the maximum with −∞
  once more changes nothing; the exponentials of the shifted scores are weightRow; their sum from 0 is
  denomRow; each weight divided by that sum, times the value row's feature, summed over the keys, is
  attnRowRef.
-/
import proofs.«147755_j40243843563672_2_alg».proof.Proof.Gen.ReferenceIdeal.Read
import proofs.«147755_j40243843563672_2_alg».proof.Proof.Spec
import Idealize.ShloMosaic.Lib.ValueIdx
import Idealize.ShloMosaic.PureOps.Ideal.Laws
import Idealize.ShloMosaic.Lib.Pipeline.Value

noncomputable section

namespace Cert.RefSide

open Cert.ReferenceIdeal Cert.ReferenceIdeal.Gen Cert.ReferenceIdeal.Read Cert.Attn
open Idealize.ShloMosaic Idealize.ShloMosaic.ValueIdx

/-- The argument's type: an [8, 2048, 512] array of extended reals. -/
abbrev Arg : Type := (⟨S8x2048x512, .f32⟩ : BufTy).Contents (Elt Ideal)

/-! ## Index equations: the stage lemmas' index functions at coordinates -/

theorem lidx_v0_ix3 (b : Fin 8) (i j : Fin 2048) (d : Fin 512) :
    lidx_main_v0 (ix3 b i j) d = ix3 b i d :=
  funext fun a => Fin.ext (by match a with | ⟨0, _⟩ => rfl | ⟨1, _⟩ => rfl | ⟨2, _⟩ => rfl)

theorem ridx_v0_ix3 (b : Fin 8) (i j : Fin 2048) (d : Fin 512) :
    ridx_main_v0 (ix3 b i j) d = ix3 b j d :=
  funext fun a => Fin.ext (by match a with | ⟨0, _⟩ => rfl | ⟨1, _⟩ => rfl | ⟨2, _⟩ => rfl)

theorem idx_v4_v5_ix3 (b : Fin 8) (i j : Fin 2048) :
    idx_main_v4 (idx_main_v5 (ix3 b i j)) = ix2 b i :=
  funext fun a => Fin.ext (by match a with | ⟨0, _⟩ => rfl | ⟨1, _⟩ => rfl)

theorem idx_v9_v10_ix3 (b : Fin 8) (i j : Fin 2048) :
    idx_main_v9 (idx_main_v10 (ix3 b i j)) = ix2 b i :=
  funext fun a => Fin.ext (by match a with | ⟨0, _⟩ => rfl | ⟨1, _⟩ => rfl)

theorem idx_v8_ix2 (b : Fin 8) (i k : Fin 2048) :
    idx_main_v8 (ix2 b i) k = ix3 b i k :=
  funext fun a => Fin.ext (by match a with | ⟨0, _⟩ => rfl | ⟨1, _⟩ => rfl | ⟨2, _⟩ => rfl)

theorem lidx_v12_ix3 (b : Fin 8) (i : Fin 2048) (c : Fin 512) (k : Fin 2048) :
    lidx_main_v12 (ix3 b i c) k = ix3 b i k :=
  funext fun a => Fin.ext (by match a with | ⟨0, _⟩ => rfl | ⟨1, _⟩ => rfl | ⟨2, _⟩ => rfl)

theorem ridx_v12_ix3 (b : Fin 8) (i : Fin 2048) (c : Fin 512) (k : Fin 2048) :
    ridx_main_v12 (ix3 b i c) k = ix3 b k c :=
  funext fun a => Fin.ext (by match a with | ⟨0, _⟩ => rfl | ⟨1, _⟩ => rfl | ⟨2, _⟩ => rfl)

/-- The reduced index (b, i) with key k put back on the last axis is (b, i, k). -/
theorem lift_ix2 (h : S8x2048x2048.Reduces [2] S8x2048) (b : Fin 8) (i : Fin 2048)
    (k : Fin (S8x2048x2048.size 2)) : h.lift (ix2 b i) k = ix3 b i (⟨k.val, k.isLt⟩ : Fin 2048) :=
  funext fun a => Fin.ext (by match a with | ⟨0, _⟩ => rfl | ⟨1, _⟩ => rfl | ⟨2, _⟩ => rfl)

/-! ## −∞ is the unit of max -/

theorem max_negInf (y : EReal) : max negInf y = y := by
  simp [negInf, Ideal.ofBits, Ideal.ieee]

/-! ## The stages -/

/-- The scores. -/
theorem v0_at (x0 : Arg) (b : Fin 8) (i j : Fin 2048) :
    val_main_v0 (F := Ideal) x0 (ix3 b i j) = scoreRow (rowOf x0 b i) (batchOf x0 b) j := by
  rw [val_main_v0_apply]
  unfold scoreRow rowOf batchOf
  refine Finset.sum_congr rfl fun d _ => ?_
  rw [lidx_v0_ix3, ridx_v0_ix3]

/-- The fold of max over the keys. -/
theorem v1_at (x0 : Arg) (b : Fin 8) (i : Fin 2048) :
    val_main_v1 (F := Ideal) x0 (ix2 b i) = maxRow (rowOf x0 b i) (batchOf x0 b) := by
  have hR : S8x2048x2048.Reduces [2] S8x2048 := by decide
  unfold val_main_v1
  rw [Host.reduce_eq_fold_single FloatOps.maximumf _ _ reducesTo_S8x2048x2048_S8x2048_d2 hR h_S_]
  have hf : (val_main_v0 (F := Ideal) x0 ∘ hR.lift (ix2 b i))
      = fun j : Fin 2048 => scoreRow (rowOf x0 b i) (batchOf x0 b) j :=
    funext fun k => by
      show val_main_v0 (F := Ideal) x0 (hR.lift (ix2 b i) k) = _
      rw [lift_ix2, v0_at]
      rfl
  unfold maxRow
  exact congrArg (fun f => Finset.fold max negInf f (Finset.univ : Finset (Fin 2048))) hf

/-- The maximum with −∞ once more. -/
theorem v3_at (x0 : Arg) (b : Fin 8) (i : Fin 2048) :
    val_main_v3 (F := Ideal) x0 (ix2 b i) = maxRow (rowOf x0 b i) (batchOf x0 b) := by
  rw [val_main_v3_apply, val_main_v2_apply, val_main_cst_0_apply, v1_at]
  exact max_negInf _

/-- The row maximum, broadcast along the keys. -/
theorem v5_at (x0 : Arg) (b : Fin 8) (i j : Fin 2048) :
    val_main_v5 (F := Ideal) x0 (ix3 b i j) = maxRow (rowOf x0 b i) (batchOf x0 b) := by
  rw [val_main_v5_apply, val_main_v4_apply, idx_v4_v5_ix3, v3_at]

/-- The exponentials of the shifted scores. -/
theorem v7_at (x0 : Arg) (b : Fin 8) (i j : Fin 2048) :
    val_main_v7 (F := Ideal) x0 (ix3 b i j) = weightRow (rowOf x0 b i) (batchOf x0 b) j := by
  rw [val_main_v7_apply, val_main_v6_apply, v0_at, v5_at]
  rfl

/-- The sum of the weights. -/
theorem v8_at (x0 : Arg) (b : Fin 8) (i : Fin 2048) :
    val_main_v8 (F := Ideal) x0 (ix2 b i) = denomRow (rowOf x0 b i) (batchOf x0 b) := by
  rw [val_main_v8_apply, val_main_cst_1_apply]
  show Ideal.ofBits .f32 0x00000000#32 + _ = _
  rw [Ideal.ofBits_zero_f32, zero_add]
  unfold denomRow
  refine Finset.sum_congr rfl fun k _ => ?_
  rw [idx_v8_ix2, v7_at]

/-- The sum of the weights, broadcast along the keys. -/
theorem v10_at (x0 : Arg) (b : Fin 8) (i j : Fin 2048) :
    val_main_v10 (F := Ideal) x0 (ix3 b i j) = denomRow (rowOf x0 b i) (batchOf x0 b) := by
  rw [val_main_v10_apply, val_main_v9_apply, idx_v9_v10_ix3, v8_at]

/-- The normalised weights. -/
theorem v11_at (x0 : Arg) (b : Fin 8) (i j : Fin 2048) :
    val_main_v11 (F := Ideal) x0 (ix3 b i j)
      = Ideal.div (weightRow (rowOf x0 b i) (batchOf x0 b) j) (denomRow (rowOf x0 b i) (batchOf x0 b)) := by
  rw [val_main_v11_apply, v7_at, v10_at]
  rfl

/-! ## The whole result -/

/-- The reference program's result term, read at the extended reals, is the normalise-first arrangement. -/
theorem ref_eq_Gref (x0 : (⟨Cert.ReferenceIdeal.S8x2048x512, .f32⟩ : BufTy).Contents (Elt Ideal)) :
    Cert.ReferenceIdeal.Read.val_main_v12 (F := Ideal) x0 = Cert.Attn.Gref x0 := by
  funext idx
  obtain ⟨b, i, c, rfl⟩ : ∃ (b : Fin 8) (i : Fin 2048) (c : Fin 512), idx = ix3 b i c :=
    ⟨idx 0, idx 1, idx 2, eq_ix3 idx⟩
  rw [val_main_v12_apply]
  show _ = attnRowRef (rowOf x0 b i) (batchOf x0 b) (batchOf x0 b) c
  unfold attnRowRef
  refine Finset.sum_congr rfl fun k _ => ?_
  rw [lidx_v12_ix3, ridx_v12_ix3, v11_at]
  rfl

end Cert.RefSide

end
-- ==== Proof.Law.lean ====
/-
  The two arrangements of the attention row agree when every entry is a real number.

  With real entries every score is a real number, the maximum folded from −∞ over the (nonempty) set of keys
  is a real number, every weight is the exponential of a real number and so a positive real, and the sum of
  the weights is a positive real `l`.  Dividing by a nonzero real is multiplying by its reciprocal, so both
  arrangements are coercions of real numbers, and `∑ j, (w j * l⁻¹) * v j = (∑ j, w j * v j) * l⁻¹` is
  distributivity in ℝ.
-/
import proofs.«147755_j40243843563672_2_alg».proof.Proof.Spec

noncomputable section

namespace Cert.Attn

open Idealize.ShloMosaic Idealize.ShloMosaic.ValueIdx

/-- The starting value of the row maximum is the bottom of the extended reals. -/
theorem negInf_eq_bot : negInf = (⊥ : EReal) := by
  unfold negInf
  simp [Ideal.ofBits, Ideal.ieee]

/-- Folding the maximum from −∞ leaves the other argument. -/
theorem max_negInf (y : EReal) : max negInf y = y := by
  rw [negInf_eq_bot]
  exact max_bot_left y

/-! ### Coercions of finite sums and of folded maxima -/

/-- The coercion ℝ → EReal commutes with a finite sum. -/
theorem coe_finsum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum folded from −∞ over a nonempty finite family of real numbers is a real number. -/
theorem fold_max_coe {ι : Type*} (s : Finset ι) (hs : s.Nonempty) (f : ι → ℝ) :
    ∃ r : ℝ, s.fold max (⊥ : EReal) (fun i => (f i : EReal)) = (r : EReal) := by
  induction hs using Finset.Nonempty.cons_induction with
  | singleton a => exact ⟨f a, by rw [Finset.fold_singleton]; exact max_bot_right _⟩
  | cons a s ha hs ih =>
    obtain ⟨r, hr⟩ := ih
    refine ⟨max (f a) r, ?_⟩
    rw [Finset.fold_cons, hr]
    exact (EReal.coe_strictMono.monotone.map_max).symm

/-! ### The row quantities at real entries -/

section Real

variable (qr : Fin 512 → ℝ) (Kr Vr : Fin 2048 → Fin 512 → ℝ)

/-- The real score of key `j`. -/
def scoreR (j : Fin 2048) : ℝ := ∑ d : Fin 512, qr d * Kr j d

theorem scoreRow_coe (j : Fin 2048) :
    scoreRow (fun d => (qr d : EReal)) (fun j d => (Kr j d : EReal)) j = (scoreR qr Kr j : EReal) := by
  unfold scoreRow scoreR
  rw [coe_finsum]
  refine Finset.sum_congr rfl fun d _ => ?_
  rw [EReal.coe_mul]

theorem maxRow_coe :
    ∃ m : ℝ, maxRow (fun d => (qr d : EReal)) (fun j d => (Kr j d : EReal)) = (m : EReal) := by
  unfold maxRow
  rw [negInf_eq_bot]
  have h : (fun j => scoreRow (fun d => (qr d : EReal)) (fun j d => (Kr j d : EReal)) j)
      = fun j => (scoreR qr Kr j : EReal) := funext fun j => scoreRow_coe qr Kr j
  rw [h]
  exact fold_max_coe Finset.univ ⟨⟨0, by norm_num⟩, Finset.mem_univ _⟩ _

/-- The real weight of key `j` against the maximum `m`. -/
def weightR (m : ℝ) (j : Fin 2048) : ℝ := Real.exp (scoreR qr Kr j - m)

theorem weightRow_coe (m : ℝ)
    (hm : maxRow (fun d => (qr d : EReal)) (fun j d => (Kr j d : EReal)) = (m : EReal)) (j : Fin 2048) :
    weightRow (fun d => (qr d : EReal)) (fun j d => (Kr j d : EReal)) j = (weightR qr Kr m j : EReal) := by
  unfold weightRow weightR
  rw [scoreRow_coe, hm, ← EReal.coe_sub, Ideal.exp_coe]

theorem denomRow_coe (m : ℝ)
    (hm : maxRow (fun d => (qr d : EReal)) (fun j d => (Kr j d : EReal)) = (m : EReal)) :
    denomRow (fun d => (qr d : EReal)) (fun j d => (Kr j d : EReal))
      = ((∑ j : Fin 2048, weightR qr Kr m j : ℝ) : EReal) := by
  unfold denomRow
  rw [coe_finsum]
  exact Finset.sum_congr rfl fun j _ => weightRow_coe qr Kr m hm j

/-- The sum of the weights is positive: every weight is an exponential and there is at least one key. -/
theorem denomR_pos (m : ℝ) : (0 : ℝ) < ∑ j : Fin 2048, weightR qr Kr m j :=
  Finset.sum_pos (fun j _ => Real.exp_pos _) ⟨⟨0, by norm_num⟩, Finset.mem_univ _⟩

end Real

/-- Distributivity through the coercion: normalising each real weight by a nonzero real `l` and summing
    against the values is the weighted sum divided by `l`. -/
theorem sum_div_coe {ι : Type*} (s : Finset ι) (w v : ι → ℝ) {l : ℝ} (hl : l ≠ 0) :
    ∑ j ∈ s, Ideal.div (w j : EReal) (l : EReal) * (v j : EReal)
      = Ideal.div (∑ j ∈ s, (w j : EReal) * (v j : EReal)) (l : EReal) := by
  have h1 : ∀ j ∈ s, Ideal.div (w j : EReal) (l : EReal) * (v j : EReal)
      = ((w j * (1 / l) * v j : ℝ) : EReal) := by
    intro j _
    rw [Ideal.div_coe hl, EReal.coe_mul, EReal.coe_mul]
  have h2 : ∀ j ∈ s, (w j : EReal) * (v j : EReal) = ((w j * v j : ℝ) : EReal) := by
    intro j _
    rw [EReal.coe_mul]
  rw [Ideal.div_coe hl, Finset.sum_congr rfl h1, Finset.sum_congr rfl h2, ← coe_finsum, ← coe_finsum,
    ← EReal.coe_mul, Finset.sum_mul]
  refine congrArg _ (Finset.sum_congr rfl fun j _ => ?_)
  ring

/-- With real entries, normalising each weight first gives the same row as dividing the weighted sum. -/
theorem attnRowRef_eq_attnRow (q : Fin 512 → EReal) (K V : Fin 2048 → Fin 512 → EReal)
    (hq : ∀ d, ∃ r : ℝ, q d = (r : EReal)) (hK : ∀ j d, ∃ r : ℝ, K j d = (r : EReal))
    (hV : ∀ j d, ∃ r : ℝ, V j d = (r : EReal))
    (c : Fin 512) : attnRowRef q K V c = attnRow q K V c := by
  choose qr hqr using hq
  choose Kr hKr using hK
  choose Vr hVr using hV
  obtain rfl : q = fun d => (qr d : EReal) := funext hqr
  obtain rfl : K = fun j d => (Kr j d : EReal) := funext fun j => funext fun d => hKr j d
  obtain rfl : V = fun j d => (Vr j d : EReal) := funext fun j => funext fun d => hVr j d
  obtain ⟨m, hm⟩ := maxRow_coe qr Kr
  have hwf : weightRow (fun d => (qr d : EReal)) (fun j d => (Kr j d : EReal))
      = fun j => (weightR qr Kr m j : EReal) := funext (weightRow_coe qr Kr m hm)
  unfold attnRowRef attnRow
  rw [denomRow_coe qr Kr m hm, hwf]
  exact sum_div_coe Finset.univ (weightR qr Kr m) (fun j => Vr j c) (ne_of_gt (denomR_pos qr Kr m))

/-- The two arrangements of the whole result agree on an array of real numbers. -/
theorem Gref_eq_G (x : SX.Idx → EReal) (hx : ∀ i, ∃ r : ℝ, x i = (r : EReal)) : Gref x = G x := by
  funext idx
  unfold Gref G
  exact attnRowRef_eq_attnRow _ _ _ (fun d => hx _) (fun j d => hx _) (fun j d => hx _) _

end Cert.Attn

end
-- ==== Proof.Finite.lean ====
/-
  The precondition makes every entry of the argument array a real number.

  The precondition reads: the conjunction, over every index of the [8, 2048, 512] argument, of `|x| < +∞`
  is true.  A conjunction that is true is true at every index; `|x| = max x (−x)` is below +∞ only when `x` is
  neither of the two infinities, that is, when `x` is the coercion of a real number.
-/
import proofs.«147755_j40243843563672_2_alg».proof.Defs
import proofs.«147755_j40243843563672_2_alg».proof.Proof.Gen.Pre_finite_inputs
import proofs.«147755_j40243843563672_2_alg».proof.Proof.Gen.KernelIdeal
import Idealize.ShloMosaic.Lib.ReduceAll
import Idealize.ShloMosaic.Lib.ValueIdx

noncomputable section

namespace Cert.FiniteInputs

open Idealize.ShloMosaic Idealize.ShloMosaic.TcCoe Idealize.SL.Sem

/-- The shape of a scalar has one index. -/
instance : Subsingleton Cert.Pre_finite_inputs.S_.Idx := ⟨fun a b => funext fun d => d.elim0⟩

/-- The f32 word of +∞ denotes the top of the extended reals. -/
theorem posInf_eq_top : Ideal.ofBits .f32 0x7F800000#32 = (⊤ : EReal) := by
  simp [Ideal.ofBits, Ideal.ieee]

/-- An ordered "less than" that came out true is the strict order. -/
theorem lt_of_cmp_olt (a b : EReal) (h : Ideal.cmp .olt a b = 1#1) : a < b := by
  unfold Ideal.cmp at h
  by_contra hn
  simp [hn] at h

/-- An extended real whose absolute value is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- An extended real whose absolute value compares below the f32 word of +∞ is a real number. -/
theorem real_of_cmp_abs (x : EReal)
    (h : Ideal.cmp .olt (max x (-x)) (Ideal.ofBits .f32 0x7F800000#32) = 1#1) : ∃ r : ℝ, x = (r : EReal) := by
  rw [posInf_eq_top] at h
  exact real_of_abs_lt_top x (lt_of_cmp_olt _ _ h)

/-- Under the precondition every entry of the argument array is a real number. -/
theorem real_of_pre (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD)
    (i : Cert.KernelIdeal.S8x2048x512.Idx) :
    ∃ r : ℝ, (m ((c.tc : Thread Cert.KernelIdeal.nD Cert.KernelIdeal.τ).loc Cert.KernelIdeal.main_arg0) : Cert.KernelIdeal.S8x2048x512.Idx → EReal) i = (r : EReal) := by
  have e := congrFun (h c) ValueIdx.ix0
  unfold Cert.Pre_finite_inputs.fn at e
  dsimp only at e
  have e1 := Host.reduce_andi_all _ _ _ _ _ e i
  exact real_of_cmp_abs
    ((m ((c.tc : Thread Cert.KernelIdeal.nD Cert.KernelIdeal.τ).loc Cert.KernelIdeal.main_arg0) : Cert.KernelIdeal.S8x2048x512.Idx → EReal) i) e1

end Cert.FiniteInputs

end
-- ==== Proof.lean ====
/-
  Self-attention with queries, keys and values all one array x of shape [8, 2048, 512]: out = softmax(x·xᵀ)·x.

  The kernel works one query tile of 512 rows at a time, over a grid of 8 batches × 4 tiles: it takes the tile's
  scores against all 2048 keys of the batch, subtracts each row's maximum, exponentiates, sums each row's weights,
  multiplies the unnormalised weights into the values (a bf16 copy of x the host makes first; at the ideal values a
  change of format is the identity) and divides each row of the product by that row's sum of weights.  The reference
  computes the scores of a whole batch at once, normalises the weights first and multiplies the normalised weights
  into the values.  So, index by index over the extended reals, the kernel's entry is the quotient
  (Σⱼ wⱼ·xⱼ) / (Σⱼ wⱼ) and the reference's is Σⱼ (wⱼ / Σ w)·xⱼ, with the same scores, the same maximum folded from
  −∞ and the same weights wⱼ = exp(sⱼ − max) on both sides (Proof/Spec.lean).  The two agree when every entry of x
  is a real number — then every score, the maximum and every weight are real, the sum of the weights is a positive
  real, and the law is distributivity in ℝ (Proof/Law.lean) —, which is what the precondition says
  (Proof/Finite.lean).

  The kernel's side: the body's one stored value read at an index (Proof/Payload.lean); the region's run with its
  four windows, two of them on the one argument array whose ownership they hold in halves (Proof/RunIdeal.lean,
  Proof/LaunchIdeal.lean; Proof/RunBits.lean and Proof/LaunchBits.lean are the same at the word level, for the
  frame of the program as printed); the 32 blocks written back tile the result array (Proof/Blocks.lean).  The
  reference's side: its run and its stages read at an index are generated modules (Gen/ReferenceIdeal/Run.lean,
  Read.lean); that the composed stages are the specification is Proof/RefSide.lean.  The idealization rewrote no
  operation, so `preserves` is trivial.
-/
import proofs.«147755_j40243843563672_2_alg».proof.Defs
import proofs.«147755_j40243843563672_2_alg».proof.Proof.Gen.Kernel
import proofs.«147755_j40243843563672_2_alg».proof.Proof.Gen.KernelIdeal
import proofs.«147755_j40243843563672_2_alg».proof.Proof.Gen.ReferenceIdeal
import proofs.«147755_j40243843563672_2_alg».proof.Proof.Gen.Pre_finite_inputs
import proofs.«147755_j40243843563672_2_alg».proof.Proof.Gen.ReferenceIdeal.Read
import proofs.«147755_j40243843563672_2_alg».proof.Proof.LaunchBits
import proofs.«147755_j40243843563672_2_alg».proof.Proof.LaunchIdeal
import proofs.«147755_j40243843563672_2_alg».proof.Proof.Blocks
import proofs.«147755_j40243843563672_2_alg».proof.Proof.Payload
import proofs.«147755_j40243843563672_2_alg».proof.Proof.RefSide
import proofs.«147755_j40243843563672_2_alg».proof.Proof.Law
import proofs.«147755_j40243843563672_2_alg».proof.Proof.Finite

noncomputable section

namespace Cert.Proof

open Idealize.ShloMosaic Idealize.ShloMosaic.TcCoe Idealize.SL.Sem

/-- The program as printed runs and leaves its argument unchanged. -/
theorem frame_k : Cert.frame_Kernel := fun m ρ _ => Cert.Kernel.Run.frame m ρ

/-- So does its reading at the ideal values. -/
theorem frame_ki : Cert.frame_KernelIdeal := fun m ρ _ => Cert.KernelIdeal.Run.frame m ρ

/-- The reference is host operations only: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- Both programs end with the result array at the attention of the argument array: the kernel's blocks tile it with
    the quotient-of-sums arrangement, the reference's stages compose to the normalise-first arrangement, and on finite
    inputs the two arrangements are one function. -/
theorem algebraic : Cert.algebraic_KernelIdeal_ReferenceIdeal := by
  intro m ρ m' ρ' hpre hagree
  refine ⟨fun c => Cert.Attn.G (m ((c.tc : Thread Cert.KernelIdeal.nD Cert.KernelIdeal.τ).loc Cert.KernelIdeal.main_arg0)), ?_, ?_⟩
  · exact (θ_run Cert.KernelIdeal.defs _ _).mono
      (fun _ h c => ⟨(h c).1.trans (Cert.KernelIdeal.Blocks.final3 Cert.KernelSide.pay_apply m c), (h c).2⟩)
      (Cert.KernelIdeal.Run.run_value (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v12_eq, Cert.RefSide.ref_eq_Gref, hagree c]
    exact Cert.Attn.Gref_eq_G _ (Cert.FiniteInputs.real_of_pre m hpre c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
